-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S16384 : Shape := ⟨1, ![16384]⟩
abbrev S512x1024 : Shape := ⟨2, ![512, 1024]⟩
abbrev S4096x1024 : Shape := ⟨2, ![4096, 1024]⟩
abbrev S512 : Shape := ⟨1, ![512]⟩
abbrev S512x1 : Shape := ⟨2, ![512, 1]⟩
abbrev S512x4096 : Shape := ⟨2, ![512, 4096]⟩
abbrev S_ : Shape := ⟨0, ![]⟩

abbrev nBuf : Space → Nat
  | .hbm => 9
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .bf16⟩
  | .hbm, ⟨4, _⟩ => ⟨S16384, .f32⟩
  | .hbm, ⟨5, _⟩ => ⟨S_, .f32⟩
  | .hbm, ⟨6, _⟩ => ⟨S_, .f32⟩
  | .hbm, ⟨7, _⟩ => ⟨S16384, .f32⟩
  | .hbm, ⟨8, _⟩ => ⟨S16384, .f32⟩
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S4096x1024, .bf16⟩
  | .local _ .vmem, ⟨4, _⟩ => ⟨S512, .f32⟩
  | .local _ .vmem, ⟨5, _⟩ => ⟨S512, .f32⟩
  | .local _ .vmem, ⟨6, _⟩ => ⟨S512x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S512x4096_S512 : S512x4096.Reduces [1] S512
  shapeCasts_S512_S512x1 : S512.ShapeCasts S512x1
  shapeCasts_S512x1_S512 : S512x1.ShapeCasts S512
  inb_S512_S512_0 : ∀ a, (![0] : Fin 1 → Nat) a + S512.size a ≤ S512.size a
  h_S512 : 0 < S512.numel
  reducesTo_S4096_S_d0 : S4096.ReducesTo [0] S_
  h_S_ : 0 < S_.numel
  bcast_S_S16384 : S_.BroadcastsInDim S16384 (![] : Fin 0 → Fin S16384.rank)
  dot_S512x1024_S4096x1024_S512x4096_1_1_0_0_n_n_wf : DotDims.WF S512x1024 S4096x1024 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x4096.size a
  hwx0_0 : ∀ i : grid0.Coords, EltTy.bits .f32 = 32 ∨ (Rect.block (s := S16384x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S16384.size a
  hwx0_2 : ∀ i : grid0.Coords, EltTy.bits .f32 = 32 ∨ (Rect.block (s := S16384) S512.size (cc0_transform_2 i) (hinb0_2 i)).WholeWords (EltTy.packing .f32)

variable [Facts₀]

def dot_S512x1024_S4096x1024_S512x4096_1_1_0_0_n_n : DotDims S512x1024 S4096x1024 S512x4096 where
  lhsContracting := [1]
  rhsContracting := [1]
  lhsNonContracting := [0]
  rhsNonContracting := [0]
  lhsBatch := []
  rhsBatch := []
  wf := dot_S512x1024_S4096x1024_S512x4096_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S1x4096 : Shape := ⟨2, ![1, 4096]⟩
abbrev S_ : Shape := ⟨0, ![]⟩
abbrev S16384 : Shape := ⟨1, ![16384]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S16384x4096, .f32⟩
  | .hbm, ⟨5, _⟩ => ⟨S1x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  reducesTo_S16384x4096_S16384_d1 : S16384x4096.ReducesTo [1] S16384
  h_S_ : 0 < S_.numel
  dot_S16384x4096_S4096x4096_S16384x4096_1_0_0_1_n_n_wf : DotDims.WF S16384x4096 S4096x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.LibColumnCasts.lean ====
import Idealize.ShloMosaic.Lib.Pipeline.Value
import Idealize.ShloMosaic.Lib.ValueIdx

/-! # Column casts read at an index

A vector of length `a` seen as an `a × 1` column (what a sum along the last axis that keeps the axis produces),
and an `a × 1` column seen as a vector again. Both casts keep the row-major position: entry `i` of the vector is
entry `(i, 0)` of the column. Stated for any extent `a` and any element type, over indices written with
`ix1` / `ix2`, so that they apply to a printed cast by unification. -/

namespace ColumnCasts

open Idealize.ShloMosaic Idealize.ShloMosaic.ValueIdx

variable {α : Type}

/-- A length-`a` vector cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to a length-`a` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end ColumnCasts
-- ==== Proof.BodyValue.lean ====
import proofs.«112219_j43800076485439_2_alg».proof.Proof.Gen.KernelIdeal.Frame
import Idealize.ShloMosaic.Lib.Pipeline.Value
import Idealize.ShloMosaic.Lib.Tactic
import Idealize.ShloMosaic.Lib.ValueIdx
import Idealize.ShloMosaic.PureOps.Ideal.Laws
import proofs.«112219_j43800076485439_2_alg».proof.Proof.LibColumnCasts

/-! # One grid point of the kernel, as values

The body has three cases. At the first column tile of a row block it stores the zero column into the carried column,
reads it back and stores one accumulation step over it. At a middle tile it stores one step over the column the point
before left. At the last tile it does the same and then stores the new column, read as a vector, into the output block.
First each case's final contents are read back as those payload terms, for any float values; then the three payloads
are read entry by entry over the extended reals: the zero column is `0`; a step adds to entry `r` of the column the
total, over the 4096 rows `o` of the weight block and the 1024 shared columns `k`, of `x r k · w o k`; the emitted
vector's entry `r` is the column's entry `(r, 0)`. -/

noncomputable section
open Idealize.ShloMosaic Idealize.ShloMosaic.TcCoe Idealize.SL.Sem
open Idealize.ShloMosaic.Pipeline (Dat)

namespace Cert.KernelIdeal.BodyValue
open Cert.KernelIdeal Cert.KernelIdeal.Gen
variable {F : FTy → Type} [FloatOps F]

/-- A store or load at the origin of a whole buffer: the offsets are all zero. -/
theorem hz2 : (![0, 0] : Fin 2 → Nat) = fun _ => 0 := funext fun a => by fin_cases a <;> rfl
theorem hz1 : (![0] : Fin 1 → Nat) = fun _ => 0 := funext fun a => by fin_cases a; rfl

/-- A middle tile leaves in the carried column one step over what it found there. -/
theorem scratch_B (c : Dev nD) (i : grid0.Coords) (a2 : Memref sig .tc .vmem S512x1024 .f32) (h2 : a2.IsWhole)
    (a3 : Memref sig .tc .vmem S4096x1024 .bf16) (h3 : a3.IsWhole) (a4 : Memref sig .tc .vmem S512 .f32) (h4 : a4.IsWhole)
    (a5 : Memref sig .tc .vmem S512x1 .f32) (h5 : a5.IsWhole) (hc0 : ¬cond0_0 i) (hc1 : ¬cond0_1 i)
    (x0 : Vec F S512x1024 .f32) (x1 : Vec F S4096x1024 .bf16) (xs : Vec F S512x1 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  rw [View.canon_unit_zero hz2]
  simp only [View.readAt_eq_ld, h2.read_unread, h3.read_unread, h5.read_unread, View.ld_unit_zero (S := S512x1024) hz2,
    View.ld_unit_zero (S := S4096x1024) hz2, View.ld_unit_zero (S := S512x1) hz2]

/-- The last tile leaves in the carried column one step over what it found there. -/
theorem scratch_C (c : Dev nD) (i : grid0.Coords) (a2 : Memref sig .tc .vmem S512x1024 .f32) (h2 : a2.IsWhole)
    (a3 : Memref sig .tc .vmem S4096x1024 .bf16) (h3 : a3.IsWhole) (a4 : Memref sig .tc .vmem S512 .f32) (h4 : a4.IsWhole)
    (a5 : Memref sig .tc .vmem S512x1 .f32) (h5 : a5.IsWhole) (hc0 : ¬cond0_0 i) (hc1 : cond0_1 i)
    (x0 : Vec F S512x1024 .f32) (x1 : Vec F S4096x1024 .bf16) (xs : Vec F S512x1 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero hz2]
  simp only [View.readAt_eq_ld, h2.read_unread, h3.read_unread, h5.read_unread, View.ld_unit_zero (S := S512x1024) hz2,
    View.ld_unit_zero (S := S4096x1024) hz2, View.ld_unit_zero (S := S512x1) hz2]

/-- The first tile leaves in the carried column one step over the zero column it has just stored and read back. -/
theorem scratch_A (c : Dev nD) (i : grid0.Coords) (a2 : Memref sig .tc .vmem S512x1024 .f32) (h2 : a2.IsWhole)
    (a3 : Memref sig .tc .vmem S4096x1024 .bf16) (h3 : a3.IsWhole) (a4 : Memref sig .tc .vmem S512 .f32) (h4 : a4.IsWhole)
    (a5 : Memref sig .tc .vmem S512x1 .f32) (h5 : a5.IsWhole) (hc0 : cond0_0 i) (hc1 : ¬cond0_1 i)
    (x0 : Vec F S512x1024 .f32) (x1 : Vec F S4096x1024 .bf16) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x1) hz2, View.readCov_unit_zero (S := S512x1) _ hz2]
  simp only [View.readAt_eq_ld, h2.read_unread, h3.read_unread, View.ld_unit_zero (S := S512x1024) hz2,
    View.ld_unit_zero (S := S4096x1024) hz2]

/-- The last tile leaves in the output block the new column read as a vector (the column is read back after its store). -/
theorem out_C (c : Dev nD) (i : grid0.Coords) (a2 : Memref sig .tc .vmem S512x1024 .f32) (h2 : a2.IsWhole)
    (a3 : Memref sig .tc .vmem S4096x1024 .bf16) (h3 : a3.IsWhole) (a4 : Memref sig .tc .vmem S512 .f32) (h4 : a4.IsWhole)
    (a5 : Memref sig .tc .vmem S512x1 .f32) (h5 : a5.IsWhole) (hc0 : ¬cond0_0 i) (hc1 : cond0_1 i)
    (x0 : Vec F S512x1024 .f32) (x1 : Vec F S4096x1024 .bf16) (xs : Vec F S512x1 .f32) :
    out0_C_2 c i a2 h2 a3 h3 a4 h4 a5 h5 hc0 hc1 x0 x1 xs = k0_pay3 (k0_pay2 x0 x1 xs) := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero hz1, View.readCov_unit_zero (S := S512x1) _ hz2]
  simp only [View.readAt_eq_ld, h2.read_unread, h3.read_unread, h5.read_unread, View.ld_unit_zero (S := S512x1024) hz2,
    View.ld_unit_zero (S := S4096x1024) hz2, View.ld_unit_zero (S := S512x1) hz2]

/-! ## The payloads at the ideal instance, entry by entry -/

open Idealize.ShloMosaic.ValueIdx ColumnCasts

/-- The left operand's row coordinate is the output's row. -/
theorem blockProduct_lhs_row (j : S512x4096.Idx) (q : dot_S512x1024_S4096x1024_S512x4096_1_1_0_0_n_n.contr.Idx) :
    (dot_S512x1024_S4096x1024_S512x4096_1_1_0_0_n_n.lhsIdx j q 0).val = (j 0).val := by
  unfold DotDims.lhsIdx
  rw [dif_neg (show ¬(0 : Fin S512x1024.rank) ∈ dot_S512x1024_S4096x1024_S512x4096_1_1_0_0_n_n.lhsBatch by decide), dif_pos (show (0 : Fin S512x1024.rank) ∈ dot_S512x1024_S4096x1024_S512x4096_1_1_0_0_n_n.lhsNonContracting by decide)]
  rfl

/-- The right operand's row coordinate is the output's column. -/
theorem blockProduct_rhs_row (j : S512x4096.Idx) (q : dot_S512x1024_S4096x1024_S512x4096_1_1_0_0_n_n.contr.Idx) :
    (dot_S512x1024_S4096x1024_S512x4096_1_1_0_0_n_n.rhsIdx j q 0).val = (j 1).val := by
  unfold DotDims.rhsIdx
  rw [dif_neg (show ¬(0 : Fin S4096x1024.rank) ∈ dot_S512x1024_S4096x1024_S512x4096_1_1_0_0_n_n.rhsBatch by decide), dif_pos (show (0 : Fin S4096x1024.rank) ∈ dot_S512x1024_S4096x1024_S512x4096_1_1_0_0_n_n.rhsNonContracting by decide)]
  rfl

/-- Entry `(r, o)` of a block product `A · Bᵀ` into a zero accumulator: the sum over the shared axis of `A r k · B o k`. -/
theorem blockProduct_apply (A : FVec Ideal S512x1024 .bf16) (B : FVec Ideal S4096x1024 .bf16) (r : Fin 512) (o : Fin 4096) :
    matmul dot_S512x1024_S4096x1024_S512x4096_1_1_0_0_n_n none A B (constant (F := Ideal) S512x4096 .f32 0x00000000#32) (ix2 r o)
      = ∑ k : Fin 1024, A (ix2 r k) * B (ix2 o k) := by
  simp only [matmul]
  rw [Ideal.matmul_constant_zero_apply, ← Equiv.sum_comp (ValueIdx.contrEquiv1 dot_S512x1024_S4096x1024_S512x4096_1_1_0_0_n_n 1024 rfl rfl).symm]
  refine Finset.sum_congr rfl fun k _ => ?_
  have hk := ValueIdx.contrEquiv1_symm_val dot_S512x1024_S4096x1024_S512x4096_1_1_0_0_n_n 1024 rfl rfl k
  have el : dot_S512x1024_S4096x1024_S512x4096_1_1_0_0_n_n.lhsIdx (ix2 r o) ((ValueIdx.contrEquiv1 dot_S512x1024_S4096x1024_S512x4096_1_1_0_0_n_n 1024 rfl rfl).symm k) = ix2 r k := funext fun a => Fin.ext (by
    match a with
    | ⟨0, _⟩ => exact blockProduct_lhs_row _ _
    | ⟨1, _⟩ => exact (dot_S512x1024_S4096x1024_S512x4096_1_1_0_0_n_n.lhsIdx_val_of_single rfl _ _).trans hk)
  have er : dot_S512x1024_S4096x1024_S512x4096_1_1_0_0_n_n.rhsIdx (ix2 r o) ((ValueIdx.contrEquiv1 dot_S512x1024_S4096x1024_S512x4096_1_1_0_0_n_n 1024 rfl rfl).symm k) = ix2 o k := funext fun a => Fin.ext (by
    match a with
    | ⟨0, _⟩ => exact blockProduct_rhs_row _ _
    | ⟨1, _⟩ => exact (dot_S512x1024_S4096x1024_S512x4096_1_1_0_0_n_n.rhsIdx_val_of_single rfl _ _).trans hk)
  rw [el, er]

/-- Entry `r` of the sum of a `512 × 4096` block along its second axis: the sum over `o` of the block at `(r, o)`. -/
theorem laneSum_apply (M : FVec Ideal S512x4096 .f32) (r : Fin 512) :
    multiReduction .add [1] S512 M 0x00000000#32 reduces_S512x4096_S512 (.inl rfl) rfl (ix1 r) = ∑ o : Fin 4096, M (ix2 r o) := by
  refine (Ideal.multiReduction_add_single M 0x00000000#32 reduces_S512x4096_S512 (.inl rfl) rfl (ix1 r)).trans ?_
  exact Finset.sum_congr rfl fun o _ => congrArg M (funext fun a => Fin.ext (by match a with | ⟨0, _⟩ => rfl | ⟨1, _⟩ => rfl))

/-- The reset stores the zero column. -/
theorem zeroColumn_apply (r : Fin 512) (u : Fin 1) : k0_pay1 (F := Ideal) (ix2 r u) = 0 := by
  unfold k0_pay1
  simp only [shapeCast_self]
  exact Ideal.ofBits_zero_f32

/-- One step of the accumulation: the column `acc` plus, row by row, the total over all `4096 × 1024` products of the
    row of the `x` block with the rows of the weight block (the casts to and from the narrow format are the identity). -/
theorem step_apply (x0 : Vec Ideal S512x1024 .f32) (x1 : Vec Ideal S4096x1024 .bf16) (acc : Vec Ideal S512x1 .f32)
    (r : Fin 512) (u : Fin 1) :
    k0_pay2 (F := Ideal) x0 x1 acc (ix2 r u) = acc (ix2 r u) + ∑ o : Fin 4096, ∑ k : Fin 1024, x0 (ix2 r k) * x1 (ix2 o k) := by
  unfold k0_pay2
  simp only [shapeCast_self]
  refine (ValueIdx.addf_apply _ _ _).trans ?_
  refine congrArg (acc (ix2 r u) + ·) ?_
  refine (shapeCast_a_a1_apply _ _ r u).trans ?_
  refine (laneSum_apply _ r).trans ?_
  refine Finset.sum_congr rfl fun o _ => ?_
  exact blockProduct_apply _ _ r o

/-- The emitted block is the column read as a vector. -/
theorem emit_apply (acc : Vec Ideal S512x1 .f32) (r : Fin 512) : k0_pay3 (F := Ideal) acc (ix1 r) = acc (ix2 r (0 : Fin 1)) := by
  unfold k0_pay3
  exact shapeCast_a1_a_apply _ _ r

end Cert.KernelIdeal.BodyValue
end
-- ==== Proof.Steps.lean ====
import proofs.«112219_j43800076485439_2_alg».proof.Proof.BodyValue

/-! # What the carried column and the emitted block hold, step by step

The grid is 32 row blocks × 4 column tiles, a point `n = 4·i + k`. Within a row block the carried column is reset
at `k = 0` and then gains, at every `k`, the row totals of the point's block product; at `k = 3` it is emitted.
So the emitted block of a row block is `(((0 + T₀) + T₁) + T₂) + T₃`, `Tₖ` the row totals at the point `4·i + k`. -/

noncomputable section
open Idealize.ShloMosaic Idealize.ShloMosaic.TcCoe Idealize.SL.Sem
open Idealize.ShloMosaic.Pipeline (Dat)

namespace Cert.KernelIdeal.Steps
open Cert.KernelIdeal Cert.KernelIdeal.Gen Cert.KernelIdeal.BodyValue Idealize.ShloMosaic.ValueIdx

section AnyValues
variable {F : FTy → Type} [FloatOps F]
variable (m : (ℓ : Loc nD τ sig) → Buf (Elt F) ℓ)

/-- At the first tile of a row block the column is the step from the zero column. -/
theorem column_first (c : Dev nD) (t : Fin cfg0.N) (h0 : t.val % 4 = 0) :
    (outsAt0 m c t.val t.isLt).2 = k0_pay2 (iblk m c 0 t) (iblk m c 1 t) (k0_pay1 (F := F)) :=
  have h1 : ¬t.val % 4 = 3 := by omega
  (congrArg Prod.snd (outsAt0_A m c t h0 h1)).trans
    (scratch_A c (grid0.coords t) (ms0_0 t) (hs0_0 t) (ms0_1 t) (hs0_1 t) (ms0_2 t) (hs0_2 t) scM0_0 (Memref.isWhole_whole _)
      ((hcond0_0 t).mpr h0) (fun hh => h1 ((hcond0_1 t).mp hh)) (iblk m c 0 t) (iblk m c 1 t))

/-- At every later tile it is the step from what the point before left. -/
theorem column_next (c : Dev nD) (t : Fin cfg0.N) (h0 : ¬t.val % 4 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 4 = 3
  · exact (congrArg Prod.snd (outsAt0_C m c t h0 h1)).trans
      (scratch_C c (grid0.coords t) (ms0_0 t) (hs0_0 t) (ms0_1 t) (hs0_1 t) (ms0_2 t) (hs0_2 t) scM0_0 (Memref.isWhole_whole _)
        (fun hh => h0 ((hcond0_0 t).mp hh)) ((hcond0_1 t).mpr h1) (iblk m c 0 t) (iblk m c 1 t)
        (outsAt0 m c (t.val - 1) (Nat.lt_of_le_of_lt (Nat.sub_le _ _) t.isLt)).2)
  · exact (congrArg Prod.snd (outsAt0_B m c t h0 h1)).trans
      (scratch_B c (grid0.coords t) (ms0_0 t) (hs0_0 t) (ms0_1 t) (hs0_1 t) (ms0_2 t) (hs0_2 t) scM0_0 (Memref.isWhole_whole _)
        (fun hh => h0 ((hcond0_0 t).mp hh)) (fun hh => h1 ((hcond0_1 t).mp hh)) (iblk m c 0 t) (iblk m c 1 t)
        (outsAt0 m c (t.val - 1) (Nat.lt_of_le_of_lt (Nat.sub_le _ _) t.isLt)).2)

/-- At the last tile the output block is the new column read as a vector. -/
theorem block_last (c : Dev nD) (t : Fin cfg0.N) (h0 : ¬t.val % 4 = 0) (h1 : t.val % 4 = 3) :
    (outsAt0 m c t.val t.isLt).1
      = k0_pay3 (k0_pay2 (iblk m c 0 t) (iblk m c 1 t) (outsAt0 m c (t.val - 1) (Nat.lt_of_le_of_lt (Nat.sub_le _ _) t.isLt)).2) :=
  (congrArg Prod.fst (outsAt0_C m c t h0 h1)).trans
    (out_C c (grid0.coords t) (ms0_0 t) (hs0_0 t) (ms0_1 t) (hs0_1 t) (ms0_2 t) (hs0_2 t) scM0_0 (Memref.isWhole_whole _)
      (fun hh => h0 ((hcond0_0 t).mp hh)) ((hcond0_1 t).mpr h1) (iblk m c 0 t) (iblk m c 1 t)
      (outsAt0 m c (t.val - 1) (Nat.lt_of_le_of_lt (Nat.sub_le _ _) t.isLt)).2)

end AnyValues

variable (m : (ℓ : Loc nD τ sig) → Buf (Elt Ideal) ℓ)

/-- The row totals of a block product: for row `r` of the `x` block, every product of an entry of that row with the
    entry of the weight block in the same column, over all the weight block's rows. -/
def rowTotals (x0 : Vec Ideal S512x1024 .f32) (x1 : Vec Ideal S4096x1024 .bf16) (r : Fin 512) : EReal :=
  ∑ o : Fin 4096, ∑ k : Fin 1024, x0 (ix2 r k) * x1 (ix2 o k)

/-- The row totals at point `s`: of the point's two input blocks. -/
def pointTerm (c : Dev nD) (s : Fin cfg0.N) (r : Fin 512) : EReal := rowTotals (iblk m c 0 s) (iblk m c 1 s) r

theorem column_first_apply (c : Dev nD) (n : ℕ) (h : n < cfg0.N) (h0 : n % 4 = 0) (r : Fin 512) (u : Fin 1) :
    (outsAt0 m c n h).2 (ix2 r u) = 0 + pointTerm m c ⟨n, h⟩ r := by
  rw [column_first m c ⟨n, h⟩ h0]
  refine (step_apply (iblk m c 0 ⟨n, h⟩) (iblk m c 1 ⟨n, h⟩) (k0_pay1 (F := Ideal)) r u).trans ?_
  rw [zeroColumn_apply]
  rfl

theorem column_next_apply (c : Dev nD) (n : ℕ) (h : n + 1 < cfg0.N) (h0 : ¬(n + 1) % 4 = 0) (r : Fin 512) (u : Fin 1) :
    (outsAt0 m c (n + 1) h).2 (ix2 r u) = (outsAt0 m c n (Nat.lt_of_succ_lt h)).2 (ix2 r u) + pointTerm m c ⟨n + 1, h⟩ r := by
  rw [column_next m c ⟨n + 1, h⟩ h0]
  exact step_apply (iblk m c 0 ⟨n + 1, h⟩) (iblk m c 1 ⟨n + 1, h⟩) (outsAt0 m c n (Nat.lt_of_succ_lt h)).2 r u

theorem block_last_apply (c : Dev nD) (n : ℕ) (h : n + 1 < cfg0.N) (h1 : (n + 1) % 4 = 3) (r : Fin 512) :
    (outsAt0 m c (n + 1) h).1 (ix1 r) = (outsAt0 m c n (Nat.lt_of_succ_lt h)).2 (ix2 r (0 : Fin 1)) + pointTerm m c ⟨n + 1, h⟩ r := by
  rw [block_last m c ⟨n + 1, h⟩ (by dsimp only; omega) h1]
  refine (emit_apply _ r).trans ?_
  exact step_apply (iblk m c 0 ⟨n + 1, h⟩) (iblk m c 1 ⟨n + 1, h⟩) (outsAt0 m c n (Nat.lt_of_succ_lt h)).2 r 0

/-- THE EMITTED BLOCK of the row block that starts at point `n` (`n ≡ 0 mod 4`): the four points' row totals added in
    order, from zero. -/
theorem emitted_apply (c : Dev nD) (n : ℕ) (h : n + 3 < cfg0.N) (hn : n % 4 = 0) (r : Fin 512) :
    (outsAt0 m c (n + 3) h).1 (ix1 r)
      = (((0 + pointTerm m c ⟨n, Nat.lt_of_le_of_lt (by omega) h⟩ r) + pointTerm m c ⟨n + 1, Nat.lt_of_le_of_lt (by omega) h⟩ r)
            + pointTerm m c ⟨n + 2, Nat.lt_of_le_of_lt (by omega) h⟩ r)
          + pointTerm m c ⟨n + 3, h⟩ r := by
  rw [block_last_apply m c (n + 2) h (by omega) r,
    column_next_apply m c (n + 1) (Nat.lt_of_le_of_lt (by omega) h) (by omega) r 0,
    column_next_apply m c n (Nat.lt_of_le_of_lt (by omega) h) (by omega) r 0,
    column_first_apply m c n (Nat.lt_of_le_of_lt (by omega) h) hn r 0]

end Cert.KernelIdeal.Steps
end
-- ==== Proof.RowSumLaw.lean ====
import Idealize.ShloMosaic.PureOps.Ideal
import Idealize.ShloMosaic.Lib.ValueIdx

/-! # A row sum of a matrix product with a bias, tile by tile

For `X : 16384 × 4096`, `W : 4096 × 4096` and `B : 4096` over the extended reals, row `b` of
`∑ₒ ((X · Wᵀ) b o + B o)` is computed in two ways. The plain one sums, over the output column `o`, the
full inner product `∑_K X b K · W o K` plus `B o`. The tiled one cuts the shared axis into four tiles of
1024 columns, takes for each tile the total over `o` and over the tile's columns of the products, adds the
four totals in order from zero, and adds the sum of `B` at the end. The two agree: addition of extended
reals is commutative and associative, so a finite sum may be split (`∑ (a + b) = ∑ a + ∑ b`), re-indexed
(a column is `1024·t + k`) and exchanged (`∑ₒ ∑ₜ = ∑ₜ ∑ₒ`) freely — no entry needs to be finite. -/

noncomputable section

namespace RowSumLaw

open Idealize.ShloMosaic Idealize.ShloMosaic.ValueIdx

/-- Column `k` of tile `t` of a 4096-wide axis cut into four tiles of 1024. -/
def col (t : Fin 4) (k : Fin 1024) : Fin 4096 := ⟨1024 * t.val + k.val, by omega⟩

/-- Tile `t`'s share of row `b`: every product `X b K · W o K` with `K` in the tile, over all `o`. -/
def tileTerm (X : (⟨2, ![16384, 4096]⟩ : Shape).Idx → EReal) (W : (⟨2, ![4096, 4096]⟩ : Shape).Idx → EReal)
    (b : Fin 16384) (t : Fin 4) : EReal :=
  ∑ o : Fin 4096, ∑ k : Fin 1024, X (ix2 b (col t k)) * W (ix2 o (col t k))

/-- The four tiles' shares added in order, from zero. -/
def tiledRowSum (X : (⟨2, ![16384, 4096]⟩ : Shape).Idx → EReal) (W : (⟨2, ![4096, 4096]⟩ : Shape).Idx → EReal)
    (b : Fin 16384) : EReal :=
  (((0 + tileTerm X W b 0) + tileTerm X W b 1) + tileTerm X W b 2) + tileTerm X W b 3

/-- The bias summed from zero. -/
def biasSum (B : (⟨1, ![4096]⟩ : Shape).Idx → EReal) : EReal := 0 + ∑ o : Fin 4096, B (ix1 o)

/-- A sum over the 4096 columns is the sum over the four tiles of the sums over each tile's 1024 columns. -/
theorem sum_tiles (g : Fin 4096 → EReal) : ∑ K : Fin 4096, g K = ∑ t : Fin 4, ∑ k : Fin 1024, g (col t k) := by
  have e := (Equiv.sum_comp (finProdFinEquiv (m := 4) (n := 1024)) (g : Fin (4 * 1024) → EReal)).symm
  rw [show (∑ K : Fin 4096, g K) = ∑ K : Fin (4 * 1024), g K from rfl, e, Fintype.sum_prod_type]
  refine Finset.sum_congr rfl fun t _ => Finset.sum_congr rfl fun k _ => congrArg g (Fin.ext ?_)
  show k.val + 1024 * t.val = 1024 * t.val + k.val
  omega

/-- The plain row sum is the tiled one plus the bias sum. -/
theorem plain_eq_tiled (X : (⟨2, ![16384, 4096]⟩ : Shape).Idx → EReal) (W : (⟨2, ![4096, 4096]⟩ : Shape).Idx → EReal)
    (B : (⟨1, ![4096]⟩ : Shape).Idx → EReal) (b : Fin 16384) :
    0 + ∑ o : Fin 4096, ((∑ K : Fin 4096, X (ix2 b K) * W (ix2 o K)) + B (ix1 o)) = tiledRowSum X W b + biasSum B := by
  unfold tiledRowSum biasSum tileTerm
  rw [Finset.sum_add_distrib]
  simp only [zero_add]
  congr 1
  rw [Finset.sum_congr rfl (fun o _ => sum_tiles (fun K => X (ix2 b K) * W (ix2 o K))), Finset.sum_comm, Fin.sum_univ_four]

end RowSumLaw

end
-- ==== Proof.KernelValue.lean ====
import proofs.«112219_j43800076485439_2_alg».proof.Proof.Steps
import proofs.«112219_j43800076485439_2_alg».proof.Proof.RowSumLaw
import Idealize.ShloMosaic.Lib.StableHlo.Run

/-! # The kernel's result array

Point `n = 4·i + k` reads rows `512·i …` and columns `1024·k …` of `x` and columns `1024·k …` of the (converted)
weight, so its row totals are tile `k`'s share of rows `512·i + r`. The block emitted at `k = 3` is therefore the tiled
row sum of those rows; the 32 emitted blocks tile the output; and the lines after the kernel add the bias sum. -/

noncomputable section
open Idealize.ShloMosaic Idealize.ShloMosaic.TcCoe Idealize.SL.Sem
open Idealize.ShloMosaic.Pipeline (Dat)

namespace Cert.KernelIdeal.KernelValue
open Cert.KernelIdeal Cert.KernelIdeal.Gen Cert.KernelIdeal.Steps Idealize.ShloMosaic.ValueIdx RowSumLaw

variable (m : (ℓ : Loc nD τ sig) → Buf (Elt Ideal) ℓ) (ρ : Dev nD → PrngReg)

/-- The three argument arrays, as functions into the extended reals. -/
abbrev argX (c : Dev nD) : (⟨2, ![16384, 4096]⟩ : Shape).Idx → EReal := m ((c : Thread nD τ).loc main_arg0)
abbrev argW (c : Dev nD) : (⟨2, ![4096, 4096]⟩ : Shape).Idx → EReal := m ((c : Thread nD τ).loc main_arg1)
abbrev argB (c : Dev nD) : (⟨1, ![4096]⟩ : Shape).Idx → EReal := m ((c : Thread nD τ).loc main_arg2)

/-- The printed index maps over the grid: point `t` is row block `t / 4`, column tile `t % 4`. -/
theorem idx_facts : ∀ t : Fin cfg0.N, win0_0.index t (0 : Fin 2) = t.val / 4 ∧ win0_0.index t (1 : Fin 2) = t.val % 4
    ∧ win0_1.index t (0 : Fin 2) = 0 ∧ win0_1.index t (1 : Fin 2) = t.val % 4 ∧ win0_2.index t (0 : Fin 1) = t.val / 4 :=
  (by decide +kernel : ∀ t : Fin grid0.N, _)

/-- The weight as the kernel finds it is the weight: the conversion to the narrow format is the identity. -/
theorem weight_found (c : Dev nD) : (V m c main_v0 : S4096x4096.Idx → EReal) = argW m c := by
  show StableHlo.after hostOps0 (fun b => m (c, b)) (Proc.devRef .tc main_v0) = _
  after_results
  rfl

/-- Entry `(r, k)` of the `x` block at point `t` is `x` at row `512·(t/4) + r`, column `1024·(t%4) + k`. -/
theorem xblock_apply (c : Dev nD) (t : Fin cfg0.N) (r : Fin 512) (k : Fin 1024) (b : Fin 16384) (K : Fin 4096)
    (hb : b.val = 512 * (t.val / 4) + r.val) (hK : K.val = 1024 * (t.val % 4) + k.val) :
    (iblk m c 0 t) (ix2 r k) = argX m c (ix2 b K) := by
  obtain ⟨e0, e1, -, -, -⟩ := idx_facts t
  unfold iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_0.index t (0 : Fin 2) * 512 + 1 * r.val = b.val; rw [e0, hb]; omega
  | ⟨1, _⟩ => show win0_0.index t (1 : Fin 2) * 1024 + 1 * k.val = K.val; rw [e1, hK]; omega

/-- Entry `(o, k)` of the weight block at point `t` is the weight at row `o`, column `1024·(t%4) + k`. -/
theorem wblock_apply (c : Dev nD) (t : Fin cfg0.N) (o : Fin 4096) (k : Fin 1024) (K : Fin 4096)
    (hK : K.val = 1024 * (t.val % 4) + k.val) :
    (iblk m c 1 t) (ix2 o k) = argW m c (ix2 o K) := by
  obtain ⟨-, -, e2, e3, -⟩ := idx_facts t
  rw [← weight_found m c]
  unfold iblk
  rw [View.read_apply]
  show V m c main_v0 _ = V m c main_v0 _
  congr 1
  funext a
  apply Fin.ext
  match a with
  | ⟨0, _⟩ => show win0_1.index t (0 : Fin 2) * 4096 + 1 * o.val = o.val; rw [e2]; omega
  | ⟨1, _⟩ => show win0_1.index t (1 : Fin 2) * 1024 + 1 * k.val = K.val; rw [e3, hK]; omega

/-- So point `t`'s row totals at row `r` are tile `t % 4`'s share of row `512·(t/4) + r`. -/
theorem pointTerm_eq (c : Dev nD) (t : Fin cfg0.N) (r : Fin 512) (b : Fin 16384) (kt : Fin 4)
    (hb : b.val = 512 * (t.val / 4) + r.val) (hk : kt.val = t.val % 4) :
    pointTerm m c t r = tileTerm (argX m c) (argW m c) b kt := by
  unfold pointTerm rowTotals tileTerm
  refine Finset.sum_congr rfl fun o _ => Finset.sum_congr rfl fun k _ => ?_
  have hK : (col kt k).val = 1024 * (t.val % 4) + k.val := by show 1024 * kt.val + k.val = _; rw [hk]
  exact congrArg₂ (· * ·) (xblock_apply m c t r k b (col kt k) hb hK) (wblock_apply m c t o k (col kt k) hK)

/-- What the kernel leaves in its output array: at row `b`, the tiled row sum. -/
def regionOut (c : Dev nD) : Buf (Elt Ideal) ((c : Thread nD τ).loc main_v1) :=
  fun i => tiledRowSum (argX m c) (argW m c) ⟨(i 0).val, (i 0).isLt⟩

/-- A point that writes back (`t % 4 = 3`) writes block `t / 4` of the tiled row sums. -/
theorem flushed_eq (c : Dev nD) (t : Fin cfg0.N) (hf : (cfg0.win 2).flush t = true) :
    (dats m 0 c).flushed 2 t = ((cfg0.win 2).blk t).view.read (Elt Ideal) (regionOut m c) := by
  have h3 : t.val % 4 = 3 := (flush0_2 t).mp hf
  show (cfg0.win 2).cut (grid0.coords t) ((dats m 0 c).after 2 t) = _
  rw [after0_2]
  obtain ⟨tv, ht⟩ := t
  obtain ⟨n, rfl⟩ : ∃ n, tv = n + 3 := ⟨tv - 3, by dsimp only at h3; omega⟩
  dsimp only at h3
  have hn : n % 4 = 0 := by omega
  obtain ⟨-, -, -, -, e4⟩ := idx_facts ⟨n + 3, ht⟩
  funext y
  obtain ⟨r, rfl⟩ : ∃ r : Fin 512, y = ix1 r := ⟨y 0, eq_ix1 y⟩
  rw [View.read_apply]
  show (outsAt0 m c (n + 3) ht).1 (ix1 r) = tiledRowSum (argX m c) (argW m c) ⟨win0_2.index ⟨n + 3, ht⟩ (0 : Fin 1) * 512 + 1 * r.val, _⟩
  have hr : r.val < 512 := r.isLt
  have hb : win0_2.index ⟨n + 3, ht⟩ (0 : Fin 1) * 512 + 1 * r.val < 16384 := by
    have hN : cfg0.N = 128 := N_0
    rw [e4]; dsimp only; omega
  rw [emitted_apply m c n ht hn r]
  unfold tiledRowSum
  rw [pointTerm_eq m c ⟨n, Nat.lt_of_le_of_lt (by omega) ht⟩ r ⟨win0_2.index ⟨n + 3, ht⟩ (0 : Fin 1) * 512 + 1 * r.val, hb⟩ 0
      (by show win0_2.index ⟨n + 3, ht⟩ (0 : Fin 1) * 512 + 1 * r.val = 512 * (n / 4) + r.val; rw [e4]; dsimp only; omega)
      (by show 0 = n % 4; omega),
    pointTerm_eq m c ⟨n + 1, Nat.lt_of_le_of_lt (by omega) ht⟩ r ⟨win0_2.index ⟨n + 3, ht⟩ (0 : Fin 1) * 512 + 1 * r.val, hb⟩ 1
      (by show win0_2.index ⟨n + 3, ht⟩ (0 : Fin 1) * 512 + 1 * r.val = 512 * ((n + 1) / 4) + r.val; rw [e4]; dsimp only; omega)
      (by show 1 = (n + 1) % 4; omega),
    pointTerm_eq m c ⟨n + 2, Nat.lt_of_le_of_lt (by omega) ht⟩ r ⟨win0_2.index ⟨n + 3, ht⟩ (0 : Fin 1) * 512 + 1 * r.val, hb⟩ 2
      (by show win0_2.index ⟨n + 3, ht⟩ (0 : Fin 1) * 512 + 1 * r.val = 512 * ((n + 2) / 4) + r.val; rw [e4]; dsimp only; omega)
      (by show 2 = (n + 2) % 4; omega),
    pointTerm_eq m c ⟨n + 3, ht⟩ r ⟨win0_2.index ⟨n + 3, ht⟩ (0 : Fin 1) * 512 + 1 * r.val, hb⟩ 3
      (by show win0_2.index ⟨n + 3, ht⟩ (0 : Fin 1) * 512 + 1 * r.val = 512 * ((n + 3) / 4) + r.val; rw [e4]; dsimp only; omega)
      (by show 3 = (n + 3) % 4; omega)]

/-- An index of the output is in point `t`'s block iff it is in the block's range. -/
theorem mem_blk (t : Fin cfg0.N) (i : S16384.Idx) :
    i ∈ ((cfg0.win 2).blk t).view.set ↔ ∀ a : Fin 1, win0_2.index t a * S512.size a ≤ (i a).val ∧ (i a).val < win0_2.index t a * S512.size a + S512.size a := by
  show i ∈ ((View.whole main_v1).slice (win0_2.rect t)).set ↔ _
  rw [View.set_slice_whole, Rect.mem_set_unit]
  exact Iff.rfl

/-- Every row is in the block of the last point of its row block. -/
theorem covered (i : S16384.Idx) : ∃ t : Fin cfg0.N, (cfg0.win 2).flush t = true ∧ i ∈ ((cfg0.win 2).blk t).view.set := by
  have hi : (i 0).val < 16384 := (i 0).isLt
  have hN : cfg0.N = 128 := N_0
  have ht : 4 * ((i 0).val / 512) + 3 < cfg0.N := by omega
  obtain ⟨-, -, -, -, e4⟩ := idx_facts ⟨4 * ((i 0).val / 512) + 3, ht⟩
  refine ⟨⟨4 * ((i 0).val / 512) + 3, ht⟩, (flush0_2 _).mpr (by dsimp only; omega), ?_⟩
  rw [mem_blk]
  intro a
  match a with
  | ⟨0, _⟩ =>
    show win0_2.index ⟨4 * ((i 0).val / 512) + 3, ht⟩ (0 : Fin 1) * 512 ≤ (i 0).val
      ∧ (i 0).val < win0_2.index ⟨4 * ((i 0).val / 512) + 3, ht⟩ (0 : Fin 1) * 512 + 512
    rw [e4]; dsimp only; omega

/-- THE KERNEL'S OUTPUT ARRAY after the run: the tiled row sums. -/
theorem final (c : Dev nD) : (dats m 0 c).arrAt 2 cfg0.N = regionOut m c :=
  (dats m 0 c).arrAt_eq_of_cover 2 (regionOut m c) (fun t hf => flushed_eq m c t hf) (covered)

/-- The program's result: the tiled row sum plus the bias sum, row by row. -/
def result (c : Dev nD) : Buf (Elt Ideal) ((c : Thread nD τ).loc main_v4) :=
  fun i => tiledRowSum (argX m c) (argW m c) ⟨(i 0).val, (i 0).isLt⟩ + biasSum (argB m c)

/-- A sum over the indices of a vector is the sum over its coordinate. -/
theorem sum_idx1 {n : ℕ} (f : (⟨1, ![n]⟩ : Shape).Idx → EReal) : ∑ i, f i = ∑ o : Fin n, f (ix1 o) :=
  (Equiv.sum_comp (⟨ix1, fun i => i 0, fun _ => rfl, fun i => (eq_ix1 i).symm⟩ : Fin n ≃ (⟨1, ![n]⟩ : Shape).Idx) f).symm

/-- The lines after the kernel: the bias summed from zero, spread over the rows and added to the kernel's output. -/
theorem tail_eq (c : Dev nD) : Pipeline.afterTail₀ cfgs (dats m) 0 (V0 m) [hostOps1] c main_v4 = result m c := by
  unfold Pipeline.afterTail₀
  show StableHlo.after hostOps1 _ (Proc.devRef .tc main_v4) = _
  after_results
  have e1 : Pipeline.withArrays (cfgs 0).spec c (V0 m c) (fun w => (dats m 0 c).arrAt w (cfgs 0).N) (Proc.devRef .tc main_v1)
      = regionOut m c := (Pipeline.withArrays_arr spec0 launch0.win.arr_inj c _ _ 2).trans (final m c)
  have e2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  rw [e1, e2]
  funext i
  obtain ⟨b, rfl⟩ : ∃ b : Fin 16384, i = ix1 b := ⟨i 0, eq_ix1 i⟩
  refine congrArg₂ (· + ·) rfl ?_
  rw [broadcastInDim_apply _ bcast_S_S16384 _ (ix1 b) ix0 (fun a => a.elim0)]
  simp only [Host.reduceAdd, Ideal.hostReduceAdd_def]
  rw [Ideal.hostReduceAdd_total reducesTo_S4096_S_d0 (fun b => b.elim0)]
  unfold biasSum
  show Ideal.ofBits .f32 0x00000000#32 + _ = 0 + _
  rw [Ideal.ofBits_zero_f32, sum_idx1]

/-- THE RUN, READ: the result array ends at the tiled row sum plus the bias sum, the arguments unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue
end
-- ==== Proof.RefRead.lean ====
import proofs.«112219_j43800076485439_2_alg».proof.Proof.Gen.ReferenceIdeal.Read
import Idealize.ShloMosaic.Lib.ValueIdx
import Idealize.ShloMosaic.PureOps.Ideal.Laws

/-! # The reference at a row

The reference transposes the weight, multiplies, adds the bias to every row and sums each row from zero. Read at
row `b` that is `0 + ∑ₒ ((∑_K x b K · w o K) + bias o)`: the transpose only swaps the weight's two coordinates,
the two broadcasts read the bias at the column. -/

noncomputable section

namespace Cert.ReferenceIdeal.RefValue

open Cert.ReferenceIdeal Cert.ReferenceIdeal.Gen Cert.ReferenceIdeal.Read Idealize.ShloMosaic Idealize.ShloMosaic.ValueIdx

theorem row_apply (x0 : (⟨S16384x4096, .f32⟩ : BufTy).Contents (Elt Ideal)) (x1 : (⟨S4096x4096, .f32⟩ : BufTy).Contents (Elt Ideal))
    (x2 : (⟨S4096, .f32⟩ : BufTy).Contents (Elt Ideal)) (b : Fin 16384) :
    val_main_v5 (F := Ideal) x0 x1 x2 (ix1 b)
      = 0 + ∑ o : Fin 4096, ((∑ K : Fin 4096, x0 (ix2 b K) * x1 (ix2 o K)) + x2 (ix1 o)) := by
  have eL : ∀ o K : Fin 4096, lidx_main_v1 (idx_main_v5 (ix1 b) o) K = ix2 b K := fun o K =>
    funext fun a => by match a with | ⟨0, _⟩ => rfl | ⟨1, _⟩ => rfl
  have eR : ∀ o K : Fin 4096, idx_main_v0 (ridx_main_v1 (idx_main_v5 (ix1 b) o) K) = ix2 o K := fun o K =>
    funext fun a => by match a with | ⟨0, _⟩ => rfl | ⟨1, _⟩ => rfl
  have eB : ∀ o : Fin 4096, idx_main_v2 (idx_main_v3 (idx_main_v5 (ix1 b) o)) = ix1 o := fun o =>
    funext fun a => by match a with | ⟨0, _⟩ => rfl
  rw [val_main_v5_apply, val_main_cst_apply]
  show Ideal.ofBits .f32 0x00000000#32 + _ = _
  rw [Ideal.ofBits_zero_f32]
  refine congrArg (0 + ·) (Finset.sum_congr rfl fun o _ => ?_)
  rw [val_main_v4_apply, val_main_v1_apply, val_main_v3_apply, val_main_v2_apply, eB]
  show (∑ K : Fin 4096, _) + x2 (ix1 o) = _
  refine congrArg (· + x2 (ix1 o)) (Finset.sum_congr rfl fun K _ => ?_)
  rw [val_main_v0_apply, eL, eR]

end Cert.ReferenceIdeal.RefValue

end
-- ==== Proof.lean ====
/- Row sums of a linear layer, `out[b] = ∑ₒ ((x · wᵀ)[b, o] + bias[o])`, over `x : 16384 × 4096`, `w : 4096 × 4096`,
   `bias : 4096`, read over the extended reals.
   The kernel walks a grid of 32 row blocks × 4 column tiles. At each point it multiplies a `512 × 1024` block of `x`
   with the `4096 × 1024` block of the weight over the shared 1024 columns, sums each row of the `512 × 4096` product,
   and adds the 512 totals to a column it carries across the four tiles (reset at the first, emitted at the last); the
   lines after it add the sum of the bias. So row `b` ends at `(((0 + T₀) + T₁) + T₂) + T₃ + (0 + ∑ₒ bias o)` with
   `Tₖ = ∑ₒ ∑_{K in tile k} x b K · w o K`. The reference ends at `0 + ∑ₒ ((∑_K x b K · w o K) + bias o)`.
   The two are equal by splitting, re-indexing and exchanging finite sums — commutativity and associativity of
   addition only, so no entry needs to be finite and the precondition is not opened. The conversions of the weight and
   of the `x` blocks to the narrow format are the identity on the extended reals.
   The three programs' runs are the generated ones; the kernel's idealization rewrote nothing. -/
import proofs.«112219_j43800076485439_2_alg».proof.Defs
import proofs.«112219_j43800076485439_2_alg».proof.Proof.Gen.Kernel
import proofs.«112219_j43800076485439_2_alg».proof.Proof.Gen.Kernel.Frame
import proofs.«112219_j43800076485439_2_alg».proof.Proof.Gen.KernelIdeal
import proofs.«112219_j43800076485439_2_alg».proof.Proof.Gen.KernelIdeal.Frame
import proofs.«112219_j43800076485439_2_alg».proof.Proof.Gen.ReferenceIdeal
import proofs.«112219_j43800076485439_2_alg».proof.Proof.Gen.ReferenceIdeal.Run
import proofs.«112219_j43800076485439_2_alg».proof.Proof.Gen.ReferenceIdeal.Read
import proofs.«112219_j43800076485439_2_alg».proof.Proof.Gen.Pre_finite_inputs
import proofs.«112219_j43800076485439_2_alg».proof.Proof.KernelValue
import proofs.«112219_j43800076485439_2_alg».proof.Proof.RefRead
import Idealize.ShloMosaic.Adequacy
import Idealize.ShloMosaic.Init

noncomputable section

namespace Cert.Proof

open Idealize.ShloMosaic Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end, from arguments that agree, at the same row sums: the kernel's at the tiled form, the reference's at
    the plain one, equal row by row. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, (hagree c).1, (hagree c).2.1, (hagree c).2.2]
  funext i
  obtain ⟨b, rfl⟩ : ∃ b : Fin 16384, i = ix1 b := ⟨i 0, eq_ix1 i⟩
  rw [Cert.ReferenceIdeal.RefValue.row_apply]
  exact RowSumLaw.plain_eq_tiled _ _ _ b

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
